-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3200000 : Shape := ⟨1, ![3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg9 : FVec F S7 .f32) (main_v33 : IVec S_ 1) : IVec S_ 1 :=
  let main_v34 : FVec F S7 .f32 := Host.absf main_arg9
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg6 : FVec F S16x16 .f32) (main_arg7 : FVec F S16 .f32) (main_arg8 : FVec F S16x7 .f32) (main_arg9 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x7 .f32 := Host.absf main_arg8
  let main_cst_10 : FVec F S_ .f32 := constant S_ .f32 0x7F800000#32
  let main_v30 : FVec F S16x7 .f32 := broadcastInDim S16x7 ![] bcast_S_S16x7 main_cst_10
  let main_v31 : IVec S16x7 1 := cmpf .olt main_v29 main_v30
  let main_c_11 : IVec S_ 1 := constantI S_ 1 1#1
  let main_v32 : IVec S_ 1 := (fun x v => Host.reduce IntOp.andi x v reducesTo_S16x7_S_d0_1 h_S_) main_v31 main_c_11
  let main_v33 : IVec S_ 1 := andi main_v28 main_v32
  fn_part2 (F := F) main_arg9 main_v33

def fn {F : FTy → Type} [FloatOps F] (main_arg0 : FVec F S100000x3 .f32) (main_arg1 : IVec S2x3200000 32) (main_arg2 : FVec F S3200000 .f32) (main_arg3 : IVec S100000 32) (main_arg4 : FVec F S3x16 .f32) (main_arg5 : FVec F S16 .f32) (main_arg6 : FVec F S16x16 .f32) (main_arg7 : FVec F S16 .f32) (main_arg8 : FVec F S16x7 .f32) (main_arg9 : FVec F S7 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3x16 .f32 := Host.absf main_arg4
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_v13 main_v16
-- ==== Kernel.lean ====
abbrev S100000x3 : Shape := ⟨2, ![100000, 3]⟩
abbrev S2x3200000 : Shape := ⟨2, ![2, 3200000]⟩
abbrev S3200000 : Shape := ⟨1, ![3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S1000x100 : Shape := ⟨2, ![1000, 100]⟩
abbrev S100000x16 : Shape := ⟨2, ![100000, 16]⟩
abbrev S4000x3 : Shape := ⟨2, ![4000, 3]⟩
abbrev S4000x16 : Shape := ⟨2, ![4000, 16]⟩
abbrev S3300000x16 : Shape := ⟨2, ![3300000, 16]⟩
abbrev S1x16 : Shape := ⟨2, ![1, 16]⟩
abbrev S1000x16 : Shape := ⟨2, ![1000, 16]⟩
abbrev S100000x1 : Shape := ⟨2, ![100000, 1]⟩
abbrev S1x7 : Shape := ⟨2, ![1, 7]⟩
abbrev S1000x7 : Shape := ⟨2, ![1000, 7]⟩

abbrev nBuf : Space → Nat
  | .hbm => 90
  | .vmem => 22
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3200000, .f32⟩
  | .hbm, ⟨3, _⟩ => ⟨S100000, .i32⟩
  | .hbm, ⟨4, _⟩ => ⟨S3x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S100000, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S1000x100, .f32⟩
  | .hbm, ⟨25, _⟩ => ⟨S1000x100, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S3300000x1, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S3300000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x16, .f32⟩
  | .hbm, ⟨77, _⟩ => ⟨S3300000x16, .f32⟩
  | .hbm, ⟨78, _⟩ => ⟨S_, .f32⟩
  | .hbm, ⟨79, _⟩ => ⟨S100000x16, .f32⟩
  | .hbm, ⟨80, _⟩ => ⟨S3300000x1, .i32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S_, .f32⟩
  | .hbm, ⟨85, _⟩ => ⟨S1000x16, .f32⟩
  | .hbm, ⟨86, _⟩ => ⟨S100000x1, .i32⟩
  | .hbm, ⟨87, _⟩ => ⟨S1000x16, .f32⟩
  | .hbm, ⟨88, _⟩ => ⟨S1x7, .f32⟩
  | .hbm, ⟨89, _⟩ => ⟨S1000x7, .f32⟩
  | .local _ .vmem, ⟨0, _⟩ => ⟨S1000x100, .f32⟩
  | .local _ .vmem, ⟨1, _⟩ => ⟨S1000x100, .f32⟩
  | .local _ .vmem, ⟨2, _⟩ => ⟨S4000x3, .f32⟩
  | .local _ .vmem, ⟨3, _⟩ => ⟨S4000x3, .f32⟩
  | .local _ .vmem, ⟨4, _⟩ => ⟨S3x16, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S1x16, .f32⟩
  | .local _ .vmem, ⟨10, _⟩ => ⟨S16x16, .f32⟩
  | .local _ .vmem, ⟨11, _⟩ => ⟨S4000x16, .f32⟩
  | .local _ .vmem, ⟨12, _⟩ => ⟨S4000x16, .f32⟩
  | .local _ .vmem, ⟨13, _⟩ => ⟨S4000x16, .f32⟩
  | .local _ .vmem, ⟨14, _⟩ => ⟨S4000x16, .f32⟩
  | .local _ .vmem, ⟨15, _⟩ => ⟨S1x16, .f32⟩
  | .local _ .vmem, ⟨16, _⟩ => ⟨S4000x16, .f32⟩
  | .local _ .vmem, ⟨17, _⟩ => ⟨S4000x16, .f32⟩
  | .local _ .vmem, ⟨18, _⟩ => ⟨S1000x16, .f32⟩
  | .local _ .vmem, ⟨19, _⟩ => ⟨S16x7, .f32⟩
  | .local _ .vmem, ⟨20, _⟩ => ⟨S1x7, .f32⟩
  | .local _ .vmem, ⟨21, _⟩ => ⟨S1000x7, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc4_stg3_0 : Ref sig .tc := ⟨.vmem, 21, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem3_0 : DmaSem sig := 11
abbrev cc2_sem3_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem1_0 : DmaSem sig := 19
abbrev cc4_sem2_0 : DmaSem sig := 20
abbrev cc4_sem3_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S16x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x7 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1000x7 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S1000x100 : S100000.ShapeCasts S1000x100
  inb_S1000x100_S1000x100_0_0 : ∀ a, (![0, 0] : Fin 2 → Nat) a + S1000x100.size a ≤ S1000x100.size a
  h_S1000x100 : 0 < S1000x100.numel
  shapeCasts_S1000x100_S1000x100 : S1000x100.ShapeCasts S1000x100
  shapeCasts_S1000x100_S100000 : S1000x100.ShapeCasts S100000
  bcast_S_S3300000 : S_.BroadcastsInDim S3300000 (![] : Fin 0 → Fin S3300000.rank)
  inb_S4000x3_S4000x3_0_0 : ∀ a, (![0, 0] : Fin 2 → Nat) a + S4000x3.size a ≤ S4000x3.size a
  h_S4000x3 : 0 < S4000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  bcast_S_S1000x16 : S_.BroadcastsInDim S1000x16 (![] : Fin 0 → Fin S1000x16.rank)
  bcast_S100000_S100000x1_0 : S100000.BroadcastsInDim S100000x1 (![0] : Fin 1 → Fin S100000x1.rank)
  shapeCasts_S7_S1x7 : S7.ShapeCasts S1x7
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S1000x7 : S1x7.Broadcasts S1000x7
  inb_S1000x7_S1000x7_0_0 : ∀ a, (![0, 0] : Fin 2 → Nat) a + S1000x7.size a ≤ S1000x7.size a
  h_S1000x7 : 0 < S1000x7.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x3_S3x16_S4000x16_1_0_0_1_n_n_wf : DotDims.WF S4000x3 S3x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x16_S4000x16_1_0_0_1_n_n_wf : DotDims.WF S4000x16 S16x16 S4000x16 [1] [0] [0] [1] [] []
  scatter_S1000x16_S100000x1_S100000x16_1_0_0_1_wf : ScatterDims.WF S1000x16 S100000x1 S100000x16 [1] [0] [0] 1
  dot_S1000x16_S16x7_S1000x7_1_0_0_1_n_n_wf : DotDims.WF S1000x16 S16x7 S1000x7 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x100.size a ≤ S1000x100.size a
  hwx0_0 : ∀ i : grid0.Coords, EltTy.bits .f32 = 32 ∨ (Rect.block (s := S1000x100) S1000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x100.size a ≤ S1000x100.size a
  hwx0_1 : ∀ i : grid0.Coords, EltTy.bits .f32 = 32 ∨ (Rect.block (s := S1000x100) S1000x100.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x3.size a ≤ S100000x3.size a
  hwx1_0 : ∀ i : grid1.Coords, EltTy.bits .f32 = 32 ∨ (Rect.block (s := S100000x3) S4000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x16.size a ≤ S3x16.size a
  hwx1_1 : ∀ i : grid1.Coords, EltTy.bits .f32 = 32 ∨ (Rect.block (s := S3x16) S3x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x16.size a ≤ S100000x16.size a
  hwx2_3 : ∀ i : grid2.Coords, EltTy.bits .f32 = 32 ∨ (Rect.block (s := S100000x16) S4000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x16.size a ≤ S1000x16.size a
  hwx4_0 : ∀ i : grid4.Coords, EltTy.bits .f32 = 32 ∨ (Rect.block (s := S1000x16) S1000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x7.size a ≤ S16x7.size a
  hwx4_1 : ∀ i : grid4.Coords, EltTy.bits .f32 = 32 ∨ (Rect.block (s := S16x7) S16x7.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x7.size a ≤ S1x7.size a
  hwx4_2 : ∀ i : grid4.Coords, EltTy.bits .f32 = 32 ∨ (Rect.block (s := S1x7) S1x7.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1000x7.size a ≤ S1000x7.size a
  hwx4_3 : ∀ i : grid4.Coords, EltTy.bits .f32 = 32 ∨ (Rect.block (s := S1000x7) S1000x7.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x3_S3x16_S4000x16_1_0_0_1_n_n : DotDims S4000x3 S3x16 S4000x16 where
  lhsContracting := [1]
  rhsContracting := [0]
  lhsNonContracting := [0]
  rhsNonContracting := [1]
  lhsBatch := []
  rhsBatch := []
  wf := dot_S4000x3_S3x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def dot_S1000x16_S16x7_S1000x7_1_0_0_1_n_n : DotDims S1000x16 S16x7 S1000x7 where
  lhsContracting := [1]
  rhsContracting := [0]
  lhsNonContracting := [0]
  rhsNonContracting := [1]
  lhsBatch := []
  rhsBatch := []
  wf := dot_S1000x16_S16x7_S1000x7_1_0_0_1_n_n_wf

abbrev win0_0 : Pipeline.Window sig grid0 :=
  Pipeline.Window.ofSpec (Memref.whole main_v12) S1000x100.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x100.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S3x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S4000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S1000x16.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S16x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x7.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1000x7.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3200000 : Shape := ⟨1, ![3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S1000x16 : Shape := ⟨2, ![1000, 16]⟩
abbrev S100000x1 : Shape := ⟨2, ![100000, 1]⟩
abbrev S1000x7 : Shape := ⟨2, ![1000, 7]⟩
abbrev S1x7 : Shape := ⟨2, ![1, 7]⟩

abbrev nBuf : Space → Nat
  | .hbm => 109
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3200000, .f32⟩
  | .hbm, ⟨3, _⟩ => ⟨S100000, .i32⟩
  | .hbm, ⟨4, _⟩ => ⟨S3x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S100000, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000, .f32⟩
  | .hbm, ⟨54, _⟩ => ⟨S3300000, .f32⟩
  | .hbm, ⟨55, _⟩ => ⟨S100000x16, .f32⟩
  | .hbm, ⟨56, _⟩ => ⟨S3300000x1, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x16, .f32⟩
  | .hbm, ⟨66, _⟩ => ⟨S3300000x16, .f32⟩
  | .hbm, ⟨67, _⟩ => ⟨S3300000x16, .f32⟩
  | .hbm, ⟨68, _⟩ => ⟨S_, .f32⟩
  | .hbm, ⟨69, _⟩ => ⟨S100000x16, .f32⟩
  | .hbm, ⟨70, _⟩ => ⟨S3300000x1, .i32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S_, .f32⟩
  | .hbm, ⟨76, _⟩ => ⟨S100000x16, .f32⟩
  | .hbm, ⟨77, _⟩ => ⟨S100000x16, .f32⟩
  | .hbm, ⟨78, _⟩ => ⟨S100000x16, .f32⟩
  | .hbm, ⟨79, _⟩ => ⟨S3300000x1, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x16, .f32⟩
  | .hbm, ⟨89, _⟩ => ⟨S3300000x16, .f32⟩
  | .hbm, ⟨90, _⟩ => ⟨S3300000x16, .f32⟩
  | .hbm, ⟨91, _⟩ => ⟨S_, .f32⟩
  | .hbm, ⟨92, _⟩ => ⟨S100000x16, .f32⟩
  | .hbm, ⟨93, _⟩ => ⟨S3300000x1, .i32⟩
  | .hbm, ⟨94, _⟩ => ⟨S100000x16, .f32⟩
  | .hbm, ⟨95, _⟩ => ⟨S1x16, .f32⟩
  | .hbm, ⟨96, _⟩ => ⟨S100000x16, .f32⟩
  | .hbm, ⟨97, _⟩ => ⟨S100000x16, .f32⟩
  | .hbm, ⟨98, _⟩ => ⟨S_, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S1000x16, .f32⟩
  | .hbm, ⟨103, _⟩ => ⟨S100000x1, .i32⟩
  | .hbm, ⟨104, _⟩ => ⟨S1000x16, .f32⟩
  | .hbm, ⟨105, _⟩ => ⟨S1000x7, .f32⟩
  | .hbm, ⟨106, _⟩ => ⟨S1x7, .f32⟩
  | .hbm, ⟨107, _⟩ => ⟨S1000x7, .f32⟩
  | .hbm, ⟨108, _⟩ => ⟨S1000x7, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1000x16 : S_.BroadcastsInDim S1000x16 (![] : Fin 0 → Fin S1000x16.rank)
  bcast_S100000_S100000x1_0 : S100000.BroadcastsInDim S100000x1 (![0] : Fin 1 → Fin S100000x1.rank)
  bcast_S7_S1x7_1 : S7.BroadcastsInDim S1x7 (![1] : Fin 1 → Fin S1x7.rank)
  bcast_S1x7_S1000x7_0_1 : S1x7.BroadcastsInDim S1000x7 (![0, 1] : Fin 2 → Fin S1000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x16_S100000x16_1_0_0_1_n_n_wf : DotDims.WF S100000x3 S3x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S1000x16_S100000x1_S100000x16_1_0_0_1_wf : ScatterDims.WF S1000x16 S100000x1 S100000x16 [1] [0] [0] 1
  dot_S1000x16_S16x7_S1000x7_1_0_0_1_n_n_wf : DotDims.WF S1000x16 S16x7 S1000x7 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def dot_S1000x16_S16x7_S1000x7_1_0_0_1_n_n : DotDims S1000x16 S16x7 S1000x7 where
  lhsContracting := [1]
  rhsContracting := [0]
  lhsNonContracting := [0]
  rhsNonContracting := [1]
  lhsBatch := []
  rhsBatch := []
  wf := dot_S1000x16_S16x7_S1000x7_1_0_0_1_n_n_wf

class Facts : Prop extends Facts₀ where

variable [Facts]
-- ==== Proof.KernelRun.lean ====
/-
  The idealized kernel's run with its result named.

  @main is ten segments: five stretches of host operations and five pipelined regions. Every unscoped buffer of a
  TensorCore ends at the contents of the last segment boundary, a fold through the segments from the launch memory
  (`Gen.W10`). The frame claim keeps only the ten argument arrays of that fold; here the same run is read once more
  and the result array of the last region, `main_v66`, is kept as well: it ends at `Gen.W10` read at its buffer.
  What that fold IS as a function of the arguments is the business of the modules that follow.
-/
import proofs.«150755_j52767968199327_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents read at its buffer, and the argument arrays end as launched. -/
theorem run_result : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.Dinv0.lean ====
/-
  Region 0: the degree normalisation, one grid point over the whole 1000 × 100 layout of the degrees.

  The body is pointwise: each degree d becomes rsqrt (max d 1e-30) where d > 0 and 0 elsewhere. Its one block is the
  whole array, so the array ends holding that function of the degrees, entry by entry.
-/
import proofs.«150755_j52767968199327_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dinv0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- One degree's factor: the inverse square root of the degree floored at the literal 1e-30, and 0 where the
    degree is not positive. -/
def dinvAt (a : Ideal .f32) : Ideal .f32 :=
  Scalar.select (FloatOps.cmpf .ogt a (Scalar.ofBits .f32 0x00000000#32))
    (FloatOps.rsqrt (FloatOps.maximumf a (Scalar.ofBits .f32 0x0DA24260#32))) (Scalar.ofBits .f32 0x00000000#32)

/-- The body's stored value is that factor of each loaded degree. -/
theorem pay_eq (x : Vec Ideal S1000x100 .f32) : k0_pay1 x = fun j => dinvAt (x j) := by
  unfold k0_pay1
  simp only [shapeCast_self]
  rfl

theorem hz : (![0, 0] : Fin 2 → Nat) = fun _ => 0 := funext fun a => by fin_cases a <;> rfl

/-- The index maps over the grid: every block index is 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

section
variable (V : (c : Dev nD) → (b : Ref sig .tc) → Buf (Elt Ideal) ((c : Thread nD τ).loc b))

/-- What the one point writes back is the factor of every degree the region finds. -/
theorem flushed_eq (c : Dev nD) (t : Fin cfg0.N) :
    (dat0 V c).flushed 1 t = ((cfg0.win 1).blk t).view.read (Elt Ideal) (fun i => dinvAt (V c main_v12 i)) := by
  show (cfg0.win 1).cut (grid0.coords t) ((dat0 V c).after 1 t) = _
  rw [after0_1]
  unfold out0_1
  rw [View.canon_unit_zero hz]
  simp only [View.ld_unit_zero (S := S1000x100) hz]
  obtain ⟨e0, e1, e2, e3⟩ := idx_facts t
  funext j
  show k0_pay1 (iblk0 V c 0 t) j = dinvAt (V c main_v12 (((cfg0.win 1).blk t).view.emb j))
  rw [pay_eq]
  have h0 : ((cfg0.win 0).blk t).view.emb j = ((cfg0.win 1).blk t).view.emb j := by
    funext a; apply Fin.ext
    match a with
    | ⟨0, _⟩ => show win0_0.index t (0 : Fin 2) * 1000 + 1 * (j 0).val = win0_1.index t (0 : Fin 2) * 1000 + 1 * (j 0).val; omega
    | ⟨1, _⟩ => show win0_0.index t (1 : Fin 2) * 100 + 1 * (j 1).val = win0_1.index t (1 : Fin 2) * 100 + 1 * (j 1).val; omega
  exact congrArg (fun y => dinvAt (V c main_v12 y)) h0

/-- An entry of the result is in point t's block iff each coordinate is in the block's range on its axis. -/
theorem mem_blk (t : Fin cfg0.N) (i : S1000x100.Idx) :
    i ∈ ((cfg0.win 1).blk t).view.set ↔ ∀ a : Fin 2, win0_1.index t a * S1000x100.size a ≤ (i a).val ∧ (i a).val < win0_1.index t a * S1000x100.size a + S1000x100.size a := by
  show i ∈ ((View.whole main_v13).slice (win0_1.rect t)).set ↔ _
  rw [View.set_slice_whole, Rect.mem_set_unit]
  exact Iff.rfl

/-- Every row block is some point's. -/
theorem idx_onto : ∀ q0 : Fin 1, ∃ t : Fin cfg0.N, win0_1.index t = ![q0.val, 0] :=
  (by decide +kernel : ∀ q0 : Fin 1, ∃ t : Fin grid0.N, win0_1.index t = ![q0.val, 0])

/-- The blocks tile the result: row r lies in the block of point r / 1000. -/
theorem cover (i : S1000x100.Idx) :
    ∃ t : Fin cfg0.N, (cfg0.win 1).flush t = true ∧ i ∈ ((cfg0.win 1).blk t).view.set := by
  have hi0 : (i 0).val < 1000 := (i 0).isLt
  have hi1 : (i 1).val < 100 := (i 1).isLt
  obtain ⟨t, ht⟩ := idx_onto ⟨(i 0).val / 1000, by omega⟩
  have q0 : win0_1.index t (0 : Fin 2) = (i 0).val / 1000 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 1000 ≤ (i 0).val ∧ (i 0).val < win0_1.index t (0 : Fin 2) * 1000 + 1000; omega
  | ⟨1, _⟩ => show win0_1.index t (1 : Fin 2) * 100 ≤ (i 1).val ∧ (i 1).val < win0_1.index t (1 : Fin 2) * 100 + 100; omega

/-- The result array after the region, as one function of the arrays the region finds. -/
theorem final (c : Dev nD) : (dat0 V c).arrAt 1 cfg0.N = fun i => dinvAt (V c main_v12 i) :=
  (dat0 V c).arrAt_eq_of_cover 1 (fun i => dinvAt (V c main_v12 i)) (fun t _ => flushed_eq V c t) cover

end

end Cert.KernelIdeal.Dinv0

end
-- ==== Proof.Dense1.lean ====
/-
  Region 1: the first layer's linear map, h = x · W1, tiled over the node axis.

  The grid has 25 points; point t stages rows 4000·t … 4000·t + 3999 of x (all 3 columns), the whole 3 × 16
  weight, and writes back rows 4000·t … of the 100000 × 16 result. The body multiplies its block of x by the weight
  into a zero accumulator (the narrowing of the factors to bf16 is the identity on extended reals). An entry of a
  product depends on one ROW of the left factor only, so the block of the result at point t is the block of the
  whole product x · W1; the 25 blocks tile the rows, and the array ends holding the whole product.
-/
import proofs.«150755_j52767968199327_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The whole product: entry (n, f) is the sum over the 3 input features of x[n, k] · w[k, f]. -/
def lin1 (x : S100000x3.Idx → EReal) (w : S3x16.Idx → EReal) : S100000x16.Idx → EReal :=
  fun i => ∑ k : Fin 3, x (ix2 (i 0) k) * w (ix2 k (i 1))

theorem mm1_lhs0 (i : S4000x16.Idx) (q : dot_S4000x3_S3x16_S4000x16_1_0_0_1_n_n.contr.Idx) : (dot_S4000x3_S3x16_S4000x16_1_0_0_1_n_n.lhsIdx i q 0).val = (i 0).val := by
  unfold DotDims.lhsIdx
  rw [dif_neg (show ¬(0 : Fin S4000x3.rank) ∈ dot_S4000x3_S3x16_S4000x16_1_0_0_1_n_n.lhsBatch by decide), dif_pos (show (0 : Fin S4000x3.rank) ∈ dot_S4000x3_S3x16_S4000x16_1_0_0_1_n_n.lhsNonContracting by decide)]
  rfl
theorem mm1_lhs1 (i : S4000x16.Idx) (q : dot_S4000x3_S3x16_S4000x16_1_0_0_1_n_n.contr.Idx) : (dot_S4000x3_S3x16_S4000x16_1_0_0_1_n_n.lhsIdx i q 1).val = (q ⟨0, by decide⟩).val :=
  dot_S4000x3_S3x16_S4000x16_1_0_0_1_n_n.lhsIdx_val_of_single rfl i q
theorem mm1_rhs0 (i : S4000x16.Idx) (q : dot_S4000x3_S3x16_S4000x16_1_0_0_1_n_n.contr.Idx) : (dot_S4000x3_S3x16_S4000x16_1_0_0_1_n_n.rhsIdx i q 0).val = (q ⟨0, by decide⟩).val :=
  dot_S4000x3_S3x16_S4000x16_1_0_0_1_n_n.rhsIdx_val_of_single rfl i q
theorem mm1_rhs1 (i : S4000x16.Idx) (q : dot_S4000x3_S3x16_S4000x16_1_0_0_1_n_n.contr.Idx) : (dot_S4000x3_S3x16_S4000x16_1_0_0_1_n_n.rhsIdx i q 1).val = (i 1).val := by
  unfold DotDims.rhsIdx
  rw [dif_neg (show ¬(1 : Fin S3x16.rank) ∈ dot_S4000x3_S3x16_S4000x16_1_0_0_1_n_n.rhsBatch by decide), dif_pos (show (1 : Fin S3x16.rank) ∈ dot_S4000x3_S3x16_S4000x16_1_0_0_1_n_n.rhsNonContracting by decide)]
  rfl

/-- The product into a zero accumulator, read at an entry: row `i 0` of the left factor against column `i 1` of the
    right one, summed over the one contracted axis. -/
theorem mm1_entry {φ₁ φ₂ : FTy} (l : FVec Ideal S4000x3 φ₁) (r : FVec Ideal S3x16 φ₂) (i : S4000x16.Idx) :
    matmul dot_S4000x3_S3x16_S4000x16_1_0_0_1_n_n none l r (constant (F := Ideal) S4000x16 .f32 0x00000000#32) i
      = ∑ k : Fin 3, l (ix2 (i 0) k) * r (ix2 k (i 1)) := by
  show FloatOps.matmul dot_S4000x3_S3x16_S4000x16_1_0_0_1_n_n none l r (constant (F := Ideal) S4000x16 .f32 0x00000000#32) i = _
  rw [Ideal.matmul_constant_zero_apply, ← Equiv.sum_comp (ValueIdx.contrEquiv1 dot_S4000x3_S3x16_S4000x16_1_0_0_1_n_n 3 rfl rfl).symm]
  refine Finset.sum_congr rfl fun k _ => ?_
  have hk := ValueIdx.contrEquiv1_symm_val dot_S4000x3_S3x16_S4000x16_1_0_0_1_n_n 3 rfl rfl k
  have el : dot_S4000x3_S3x16_S4000x16_1_0_0_1_n_n.lhsIdx i ((ValueIdx.contrEquiv1 dot_S4000x3_S3x16_S4000x16_1_0_0_1_n_n 3 rfl rfl).symm k) = ix2 (i 0) k := funext fun a => Fin.ext (by
    match a with
    | ⟨0, _⟩ => exact mm1_lhs0 _ _
    | ⟨1, _⟩ => exact (mm1_lhs1 _ _).trans hk)
  have er : dot_S4000x3_S3x16_S4000x16_1_0_0_1_n_n.rhsIdx i ((ValueIdx.contrEquiv1 dot_S4000x3_S3x16_S4000x16_1_0_0_1_n_n 3 rfl rfl).symm k) = ix2 k (i 1) := funext fun a => Fin.ext (by
    match a with
    | ⟨0, _⟩ => exact (mm1_rhs0 _ _).trans hk
    | ⟨1, _⟩ => exact mm1_rhs1 _ _)
  rw [el, er]
  rfl

/-- The body's stored value at an entry of its block. -/
theorem pay_entry (x0 : Vec Ideal S4000x3 .f32) (x1 : Vec Ideal S3x16 .f32) (j : S4000x16.Idx) :
    k1_pay1 x0 x1 j = ∑ k : Fin 3, x0 (ix2 (j 0) k) * x1 (ix2 k (j 1)) := by
  unfold k1_pay1
  exact mm1_entry _ _ j

theorem hz : (![0, 0] : Fin 2 → Nat) = fun _ => 0 := funext fun a => by fin_cases a <;> rfl

/-- The index maps over the grid: the row block of x and of the result is the point's number; the weight's block
    and every column block is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of the whole product of the arrays the region finds. -/
theorem flushed_eq (c : Dev nD) (t : Fin cfg1.N) :
    (dat1 V c).flushed 2 t = ((cfg1.win 2).blk t).view.read (Elt Ideal) (lin1 (V c main_arg0) (V c main_arg4)) := by
  show (cfg1.win 2).cut (grid1.coords t) ((dat1 V c).after 2 t) = _
  rw [after1_2]
  unfold out1_2
  rw [View.canon_unit_zero hz]
  simp only [View.ld_unit_zero (S := S4000x3) hz, View.ld_unit_zero (S := S3x16) hz]
  obtain ⟨e0, e1, e2, e3, e4, e5⟩ := idx_facts t
  funext j
  show k1_pay1 (iblk1 V c 0 t) (iblk1 V c 1 t) j = lin1 (V c main_arg0) (V c main_arg4) (((cfg1.win 2).blk t).view.emb j)
  rw [pay_entry]
  unfold lin1
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 3 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 3 + 1 * k.val = k.val; omega
    | ⟨1, _⟩ => show win1_1.index t (1 : Fin 2) * 16 + 1 * (j 1).val = win1_2.index t (1 : Fin 2) * 16 + 1 * (j 1).val; omega
  exact congrArg₂ (fun a b : EReal => a * b) (congrArg (V c main_arg0) h0) (congrArg (V c main_arg4) h1)

/-- An entry of the result is in point t's block iff each coordinate is in the block's range on its axis. -/
theorem mem_blk (t : Fin cfg1.N) (i : S100000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v31).slice (win1_2.rect t)).set ↔ _
  rw [View.set_slice_whole, Rect.mem_set_unit]
  exact Iff.rfl

/-- Every row block is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- The blocks tile the result: row r lies in the block of point r / 4000. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 16 ≤ (i 1).val ∧ (i 1).val < win1_2.index t (1 : Fin 2) * 16 + 16; omega

/-- The result array after the region: the whole product of the arrays the region finds. -/
theorem final (c : Dev nD) : (dat1 V c).arrAt 2 cfg1.N = lin1 (V c main_arg0) (V c main_arg4) :=
  (dat1 V c).arrAt_eq_of_cover 2 (lin1 (V c main_arg0) (V c main_arg4)) (fun t _ => flushed_eq V c t) cover

end

end Cert.KernelIdeal.Dense1

end
-- ==== Proof.Dense2.lean ====
/-
  Region 2: the first layer's bias and relu fused with the second layer's linear map, tiled over the node axis.

  Point t stages rows 4000·t … of the aggregated messages (16 columns), the bias as a 1 × 16 row and the whole
  16 × 16 weight, and writes back the same rows of the result. The body adds the bias row to every row of its block,
  takes the maximum with 0, and multiplies by the weight into a zero accumulator (narrowing to bf16 is the identity
  on extended reals). Each entry depends on one row of the block only, so point t's block is block t of ONE function
  of the whole arrays, relu(a + b) · w, and the 25 blocks tile the rows.
-/
import proofs.«150755_j52767968199327_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- relu(a + b) · w, entry (n, f): the sum over the 16 hidden features k of max (a[n, k] + b[0, k]) 0 · w[k, f]. -/
def lin2 (a : S100000x16.Idx → EReal) (b : S1x16.Idx → EReal) (w : S16x16.Idx → EReal) : S100000x16.Idx → EReal :=
  fun i => ∑ k : Fin 16, max (a (ix2 (i 0) k) + b (ix2 0 k)) (Ideal.ofBits .f32 0x00000000#32) * w (ix2 k (i 1))

theorem mm2_lhs0 (i : S4000x16.Idx) (q : dot_S4000x16_S16x16_S4000x16_1_0_0_1_n_n.contr.Idx) : (dot_S4000x16_S16x16_S4000x16_1_0_0_1_n_n.lhsIdx i q 0).val = (i 0).val := by
  unfold DotDims.lhsIdx
  rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
  rfl
theorem mm2_lhs1 (i : S4000x16.Idx) (q : dot_S4000x16_S16x16_S4000x16_1_0_0_1_n_n.contr.Idx) : (dot_S4000x16_S16x16_S4000x16_1_0_0_1_n_n.lhsIdx i q 1).val = (q ⟨0, by decide⟩).val :=
  dot_S4000x16_S16x16_S4000x16_1_0_0_1_n_n.lhsIdx_val_of_single rfl i q
theorem mm2_rhs0 (i : S4000x16.Idx) (q : dot_S4000x16_S16x16_S4000x16_1_0_0_1_n_n.contr.Idx) : (dot_S4000x16_S16x16_S4000x16_1_0_0_1_n_n.rhsIdx i q 0).val = (q ⟨0, by decide⟩).val :=
  dot_S4000x16_S16x16_S4000x16_1_0_0_1_n_n.rhsIdx_val_of_single rfl i q
theorem mm2_rhs1 (i : S4000x16.Idx) (q : dot_S4000x16_S16x16_S4000x16_1_0_0_1_n_n.contr.Idx) : (dot_S4000x16_S16x16_S4000x16_1_0_0_1_n_n.rhsIdx i q 1).val = (i 1).val := by
  unfold DotDims.rhsIdx
  rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
  rfl

/-- The product into a zero accumulator, read at an entry: row `i 0` of the left factor against column `i 1` of the
    right one, summed over the one contracted axis. -/
theorem mm2_entry {φ₁ φ₂ : FTy} (l : FVec Ideal S4000x16 φ₁) (r : FVec Ideal S16x16 φ₂) (i : S4000x16.Idx) :
    matmul dot_S4000x16_S16x16_S4000x16_1_0_0_1_n_n none l r (constant (F := Ideal) S4000x16 .f32 0x00000000#32) i
      = ∑ k : Fin 16, l (ix2 (i 0) k) * r (ix2 k (i 1)) := by
  show FloatOps.matmul dot_S4000x16_S16x16_S4000x16_1_0_0_1_n_n none l r (constant (F := Ideal) S4000x16 .f32 0x00000000#32) i = _
  rw [Ideal.matmul_constant_zero_apply, ← Equiv.sum_comp (ValueIdx.contrEquiv1 dot_S4000x16_S16x16_S4000x16_1_0_0_1_n_n 16 rfl rfl).symm]
  refine Finset.sum_congr rfl fun k _ => ?_
  have hk := ValueIdx.contrEquiv1_symm_val dot_S4000x16_S16x16_S4000x16_1_0_0_1_n_n 16 rfl rfl k
  have el : dot_S4000x16_S16x16_S4000x16_1_0_0_1_n_n.lhsIdx i ((ValueIdx.contrEquiv1 dot_S4000x16_S16x16_S4000x16_1_0_0_1_n_n 16 rfl rfl).symm k) = ix2 (i 0) k := funext fun a => Fin.ext (by
    match a with
    | ⟨0, _⟩ => exact mm2_lhs0 _ _
    | ⟨1, _⟩ => exact (mm2_lhs1 _ _).trans hk)
  have er : dot_S4000x16_S16x16_S4000x16_1_0_0_1_n_n.rhsIdx i ((ValueIdx.contrEquiv1 dot_S4000x16_S16x16_S4000x16_1_0_0_1_n_n 16 rfl rfl).symm k) = ix2 k (i 1) := funext fun a => Fin.ext (by
    match a with
    | ⟨0, _⟩ => exact (mm2_rhs0 _ _).trans hk
    | ⟨1, _⟩ => exact mm2_rhs1 _ _)
  rw [el, er]
  rfl

/-- The bias row spread over the block's rows reads the row's entry of the same column. -/
theorem bias_row (b : Vec Ideal S1x16 .f32) (j : S4000x16.Idx) :
    broadcastTo S4000x16 b broadcasts_S1x16_S4000x16 j = b (ix2 0 (j 1)) :=
  broadcastTo_apply b broadcasts_S1x16_S4000x16 j (ix2 0 (j 1)) fun a => by
    match a with
    | ⟨0, _⟩ => rfl
    | ⟨1, _⟩ => rfl

/-- The body's stored value at an entry of its block. -/
theorem pay_entry (x0 : Vec Ideal S4000x16 .f32) (x1 : Vec Ideal S1x16 .f32) (x2 : Vec Ideal S16x16 .f32) (j : S4000x16.Idx) :
    k2_pay1 x0 x1 x2 j = ∑ k : Fin 16, max (x0 (ix2 (j 0) k) + x1 (ix2 0 k)) (Ideal.ofBits .f32 0x00000000#32) * x2 (ix2 k (j 1)) := by
  unfold k2_pay1
  refine (mm2_entry _ _ j).trans (Finset.sum_congr rfl fun k _ => ?_)
  show max (shapeCast S4000x16 x0 shapeCasts_S4000x16_S4000x16 (ix2 (j 0) k)
      + broadcastTo S4000x16 (shapeCast S1x16 x1 shapeCasts_S1x16_S1x16) broadcasts_S1x16_S4000x16 (ix2 (j 0) k)) (Ideal.ofBits .f32 0x00000000#32)
      * x2 (ix2 k (j 1)) = _
  rw [shapeCast_self, shapeCast_self, bias_row]

theorem hz : (![0, 0] : Fin 2 → Nat) = fun _ => 0 := funext fun a => by fin_cases a <;> rfl

/-- The index maps over the grid: the row block of the messages and of the result is the point's number; the bias's,
    the weight's and every column block is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point t writes back is block t of relu(a + b) · w of the arrays the region finds. -/
theorem flushed_eq (c : Dev nD) (t : Fin cfg2.N) :
    (dat2 V c).flushed 3 t = ((cfg2.win 3).blk t).view.read (Elt Ideal) (lin2 (V c main_v44) (V c main_v45) (V c main_arg6)) := by
  show (cfg2.win 3).cut (grid2.coords t) ((dat2 V c).after 3 t) = _
  rw [after2_3]
  unfold out2_3
  rw [View.canon_unit_zero hz]
  simp only [View.ld_unit_zero (S := S4000x16) hz, View.ld_unit_zero (S := S1x16) hz, View.ld_unit_zero (S := S16x16) hz]
  obtain ⟨e0, e1, e2, e3, e4, e5, e6, e7⟩ := idx_facts t
  funext j
  show k2_pay1 (iblk2 V c 0 t) (iblk2 V c 1 t) (iblk2 V c 2 t) j = lin2 (V c main_v44) (V c main_v45) (V c main_arg6) (((cfg2.win 3).blk t).view.emb j)
  rw [pay_entry]
  unfold lin2
  refine Finset.sum_congr rfl fun k _ => ?_
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 16 + 1 * k.val = k.val; omega
  have h1 : ((cfg2.win 1).blk t).view.emb (ix2 0 k) = ix2 0 k := by
    funext a; apply Fin.ext
    match a with
    | ⟨0, _⟩ => show win2_1.index t (0 : Fin 2) * 1 + 1 * 0 = 0; omega
    | ⟨1, _⟩ => show win2_1.index t (1 : Fin 2) * 16 + 1 * k.val = k.val; omega
  have h2 : ((cfg2.win 2).blk t).view.emb (ix2 k (j 1)) = ix2 k ((((cfg2.win 3).blk t).view.emb j) 1) := by
    funext a; apply Fin.ext
    match a with
    | ⟨0, _⟩ => show win2_2.index t (0 : Fin 2) * 16 + 1 * k.val = k.val; omega
    | ⟨1, _⟩ => show win2_2.index t (1 : Fin 2) * 16 + 1 * (j 1).val = win2_3.index t (1 : Fin 2) * 16 + 1 * (j 1).val; omega
  exact congrArg₂ (fun u v : EReal => u * v)
    (congrArg₂ (fun u v : EReal => max (u + v) (Ideal.ofBits .f32 0x00000000#32)) (congrArg (V c main_v44) h0) (congrArg (V c main_v45) h1))
    (congrArg (V c main_arg6) h2)

/-- An entry of the result is in point t's block iff each coordinate is in the block's range on its axis. -/
theorem mem_blk (t : Fin cfg2.N) (i : S100000x16.Idx) :
    i ∈ ((cfg2.win 3).blk t).view.set ↔ ∀ a : Fin 2, win2_3.index t a * S4000x16.size a ≤ (i a).val ∧ (i a).val < win2_3.index t a * S4000x16.size a + S4000x16.size a := by
  show i ∈ ((View.whole main_v46).slice (win2_3.rect t)).set ↔ _
  rw [View.set_slice_whole, Rect.mem_set_unit]
  exact Iff.rfl

/-- Every row block is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

/-- The blocks tile the result: row r lies in the block of point r / 4000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := idx_onto ⟨(i 0).val / 4000, by omega⟩
  have q0 : win2_3.index t (0 : Fin 2) = (i 0).val / 4000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 16 ≤ (i 1).val ∧ (i 1).val < win2_3.index t (1 : Fin 2) * 16 + 16; omega

/-- The result array after the region, as one function of the arrays the region finds. -/
theorem final (c : Dev nD) : (dat2 V c).arrAt 3 cfg2.N = lin2 (V c main_v44) (V c main_v45) (V c main_arg6) :=
  (dat2 V c).arrAt_eq_of_cover 3 (lin2 (V c main_v44) (V c main_v45) (V c main_arg6)) (fun t _ => flushed_eq V c t) cover

end

end Cert.KernelIdeal.Dense2

end
-- ==== Proof.Dense3.lean ====
/-
  Region 3: the second layer's bias and relu, tiled over the node axis.

  Point t stages rows 4000·t … of the aggregated messages and the bias as a 1 × 16 row, and writes back the same
  rows of max (a + b) 0. The body is pointwise but for spreading the bias row over the block's rows, so point t's
  block is block t of one function of the whole arrays, and the 25 blocks tile the rows.
-/
import proofs.«150755_j52767968199327_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- relu(a + b), entry (n, f): max (a[n, f] + b[0, f]) 0. -/
def act3 (a : S100000x16.Idx → EReal) (b : S1x16.Idx → EReal) : S100000x16.Idx → EReal :=
  fun i => max (a i + b (ix2 0 (i 1))) (Ideal.ofBits .f32 0x00000000#32)

/-- The bias row spread over the block's rows reads the row's entry of the same column. -/
theorem bias_row (b : Vec Ideal S1x16 .f32) (j : S4000x16.Idx) :
    broadcastTo S4000x16 b broadcasts_S1x16_S4000x16 j = b (ix2 0 (j 1)) :=
  broadcastTo_apply b broadcasts_S1x16_S4000x16 j (ix2 0 (j 1)) fun a => by
    match a with
    | ⟨0, _⟩ => rfl
    | ⟨1, _⟩ => rfl

/-- The body's stored value at an entry of its block. -/
theorem pay_entry (x0 : Vec Ideal S4000x16 .f32) (x1 : Vec Ideal S1x16 .f32) (j : S4000x16.Idx) :
    k3_pay1 x0 x1 j = max (x0 j + x1 (ix2 0 (j 1))) (Ideal.ofBits .f32 0x00000000#32) := by
  unfold k3_pay1
  show max (shapeCast S4000x16 x0 shapeCasts_S4000x16_S4000x16 j
      + broadcastTo S4000x16 (shapeCast S1x16 x1 shapeCasts_S1x16_S1x16) broadcasts_S1x16_S4000x16 j) (Ideal.ofBits .f32 0x00000000#32) = _
  rw [shapeCast_self, shapeCast_self, bias_row]

theorem hz : (![0, 0] : Fin 2 → Nat) = fun _ => 0 := funext fun a => by fin_cases a <;> rfl

/-- The index maps over the grid: the row block of the messages and of the result is the point's number; the bias's
    and every column block is 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point t writes back is block t of relu(a + b) of the arrays the region finds. -/
theorem flushed_eq (c : Dev nD) (t : Fin cfg3.N) :
    (dat3 V c).flushed 2 t = ((cfg3.win 2).blk t).view.read (Elt Ideal) (act3 (V c main_v59) (V c main_v60)) := by
  show (cfg3.win 2).cut (grid3.coords t) ((dat3 V c).after 2 t) = _
  rw [after3_2]
  unfold out3_2
  rw [View.canon_unit_zero hz]
  simp only [View.ld_unit_zero (S := S4000x16) hz, View.ld_unit_zero (S := S1x16) hz]
  obtain ⟨e0, e1, e2, e3, e4, e5⟩ := idx_facts t
  funext j
  show k3_pay1 (iblk3 V c 0 t) (iblk3 V c 1 t) j = act3 (V c main_v59) (V c main_v60) (((cfg3.win 2).blk t).view.emb j)
  rw [pay_entry]
  unfold act3
  have h0 : ((cfg3.win 0).blk t).view.emb j = ((cfg3.win 2).blk t).view.emb j := by
    funext a; apply Fin.ext
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 16 + 1 * (j 1).val = win3_2.index t (1 : Fin 2) * 16 + 1 * (j 1).val; omega
  have h1 : ((cfg3.win 1).blk t).view.emb (ix2 0 (j 1)) = ix2 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 16 + 1 * (j 1).val = win3_2.index t (1 : Fin 2) * 16 + 1 * (j 1).val; omega
  exact congrArg₂ (fun u v : EReal => max (u + v) (Ideal.ofBits .f32 0x00000000#32)) (congrArg (V c main_v59) h0) (congrArg (V c main_v60) h1)

/-- An entry of the result is in point t's block iff each coordinate is in the block's range on its axis. -/
theorem mem_blk (t : Fin cfg3.N) (i : S100000x16.Idx) :
    i ∈ ((cfg3.win 2).blk t).view.set ↔ ∀ a : Fin 2, win3_2.index t a * S4000x16.size a ≤ (i a).val ∧ (i a).val < win3_2.index t a * S4000x16.size a + S4000x16.size a := by
  show i ∈ ((View.whole main_v61).slice (win3_2.rect t)).set ↔ _
  rw [View.set_slice_whole, Rect.mem_set_unit]
  exact Iff.rfl

/-- Every row block is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- The blocks tile the result: row r lies in the block of point r / 4000. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 16 ≤ (i 1).val ∧ (i 1).val < win3_2.index t (1 : Fin 2) * 16 + 16; omega

/-- The result array after the region, as one function of the arrays the region finds. -/
theorem final (c : Dev nD) : (dat3 V c).arrAt 2 cfg3.N = act3 (V c main_v59) (V c main_v60) :=
  (dat3 V c).arrAt_eq_of_cover 2 (act3 (V c main_v59) (V c main_v60)) (fun t _ => flushed_eq V c t) cover

end

end Cert.KernelIdeal.Dense3

end
-- ==== Proof.Classify4.lean ====
/-
  Region 4: the classifier, pooled · Wlin + blin, one grid point over whole arrays.

  The body multiplies the 1000 × 16 pooled features by the 16 × 7 weight into a zero accumulator (narrowing to bf16
  is the identity on extended reals) and adds the bias, staged as a 1 × 7 row, to every row. Its one block is the
  whole array.
-/
import proofs.«150755_j52767968199327_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Classify4

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- p · w + b, entry (g, cl): the sum over the 16 features k of p[g, k] · w[k, cl], plus b[0, cl]. -/
def cls (p : S1000x16.Idx → EReal) (w : S16x7.Idx → EReal) (b : S1x7.Idx → EReal) : S1000x7.Idx → EReal :=
  fun i => (∑ k : Fin 16, p (ix2 (i 0) k) * w (ix2 k (i 1))) + b (ix2 0 (i 1))

theorem mm4_lhs0 (i : S1000x7.Idx) (q : dot_S1000x16_S16x7_S1000x7_1_0_0_1_n_n.contr.Idx) : (dot_S1000x16_S16x7_S1000x7_1_0_0_1_n_n.lhsIdx i q 0).val = (i 0).val := by
  unfold DotDims.lhsIdx
  rw [dif_neg (show ¬(0 : Fin S1000x16.rank) ∈ dot_S1000x16_S16x7_S1000x7_1_0_0_1_n_n.lhsBatch by decide), dif_pos (show (0 : Fin S1000x16.rank) ∈ dot_S1000x16_S16x7_S1000x7_1_0_0_1_n_n.lhsNonContracting by decide)]
  rfl
theorem mm4_lhs1 (i : S1000x7.Idx) (q : dot_S1000x16_S16x7_S1000x7_1_0_0_1_n_n.contr.Idx) : (dot_S1000x16_S16x7_S1000x7_1_0_0_1_n_n.lhsIdx i q 1).val = (q ⟨0, by decide⟩).val :=
  dot_S1000x16_S16x7_S1000x7_1_0_0_1_n_n.lhsIdx_val_of_single rfl i q
theorem mm4_rhs0 (i : S1000x7.Idx) (q : dot_S1000x16_S16x7_S1000x7_1_0_0_1_n_n.contr.Idx) : (dot_S1000x16_S16x7_S1000x7_1_0_0_1_n_n.rhsIdx i q 0).val = (q ⟨0, by decide⟩).val :=
  dot_S1000x16_S16x7_S1000x7_1_0_0_1_n_n.rhsIdx_val_of_single rfl i q
theorem mm4_rhs1 (i : S1000x7.Idx) (q : dot_S1000x16_S16x7_S1000x7_1_0_0_1_n_n.contr.Idx) : (dot_S1000x16_S16x7_S1000x7_1_0_0_1_n_n.rhsIdx i q 1).val = (i 1).val := by
  unfold DotDims.rhsIdx
  rw [dif_neg (show ¬(1 : Fin S16x7.rank) ∈ dot_S1000x16_S16x7_S1000x7_1_0_0_1_n_n.rhsBatch by decide), dif_pos (show (1 : Fin S16x7.rank) ∈ dot_S1000x16_S16x7_S1000x7_1_0_0_1_n_n.rhsNonContracting by decide)]
  rfl

/-- The product into a zero accumulator, read at an entry: row `i 0` of the left factor against column `i 1` of the
    right one, summed over the one contracted axis. -/
theorem mm4_entry {φ₁ φ₂ : FTy} (l : FVec Ideal S1000x16 φ₁) (r : FVec Ideal S16x7 φ₂) (i : S1000x7.Idx) :
    matmul dot_S1000x16_S16x7_S1000x7_1_0_0_1_n_n none l r (constant (F := Ideal) S1000x7 .f32 0x00000000#32) i
      = ∑ k : Fin 16, l (ix2 (i 0) k) * r (ix2 k (i 1)) := by
  show FloatOps.matmul dot_S1000x16_S16x7_S1000x7_1_0_0_1_n_n none l r (constant (F := Ideal) S1000x7 .f32 0x00000000#32) i = _
  rw [Ideal.matmul_constant_zero_apply, ← Equiv.sum_comp (ValueIdx.contrEquiv1 dot_S1000x16_S16x7_S1000x7_1_0_0_1_n_n 16 rfl rfl).symm]
  refine Finset.sum_congr rfl fun k _ => ?_
  have hk := ValueIdx.contrEquiv1_symm_val dot_S1000x16_S16x7_S1000x7_1_0_0_1_n_n 16 rfl rfl k
  have el : dot_S1000x16_S16x7_S1000x7_1_0_0_1_n_n.lhsIdx i ((ValueIdx.contrEquiv1 dot_S1000x16_S16x7_S1000x7_1_0_0_1_n_n 16 rfl rfl).symm k) = ix2 (i 0) k := funext fun a => Fin.ext (by
    match a with
    | ⟨0, _⟩ => exact mm4_lhs0 _ _
    | ⟨1, _⟩ => exact (mm4_lhs1 _ _).trans hk)
  have er : dot_S1000x16_S16x7_S1000x7_1_0_0_1_n_n.rhsIdx i ((ValueIdx.contrEquiv1 dot_S1000x16_S16x7_S1000x7_1_0_0_1_n_n 16 rfl rfl).symm k) = ix2 k (i 1) := funext fun a => Fin.ext (by
    match a with
    | ⟨0, _⟩ => exact (mm4_rhs0 _ _).trans hk
    | ⟨1, _⟩ => exact mm4_rhs1 _ _)
  rw [el, er]
  rfl

/-- The bias row spread over the rows reads the row's entry of the same column. -/
theorem bias_row (b : Vec Ideal S1x7 .f32) (j : S1000x7.Idx) :
    broadcastTo S1000x7 b broadcasts_S1x7_S1000x7 j = b (ix2 0 (j 1)) :=
  broadcastTo_apply b broadcasts_S1x7_S1000x7 j (ix2 0 (j 1)) fun a => by
    match a with
    | ⟨0, _⟩ => rfl
    | ⟨1, _⟩ => rfl

/-- The body's stored value at an entry. -/
theorem pay_entry (x0 : Vec Ideal S1000x16 .f32) (x1 : Vec Ideal S16x7 .f32) (x2 : Vec Ideal S1x7 .f32) (j : S1000x7.Idx) :
    k4_pay1 x0 x1 x2 j = (∑ k : Fin 16, x0 (ix2 (j 0) k) * x1 (ix2 k (j 1))) + x2 (ix2 0 (j 1)) := by
  unfold k4_pay1
  show matmul dot_S1000x16_S16x7_S1000x7_1_0_0_1_n_n none (truncf .bf16 (shapeCast S1000x16 x0 shapeCasts_S1000x16_S1000x16) bitsLt_bf16_f32)
      (truncf .bf16 x1 bitsLt_bf16_f32) (constant (F := Ideal) S1000x7 .f32 0x00000000#32) j
      + broadcastTo S1000x7 (shapeCast S1x7 x2 shapeCasts_S1x7_S1x7) broadcasts_S1x7_S1000x7 j = _
  rw [shapeCast_self, shapeCast_self, bias_row, mm4_entry]
  rfl

theorem hz : (![0, 0] : Fin 2 → Nat) = fun _ => 0 := funext fun a => by fin_cases a <;> rfl

/-- The index maps over the grid: every block index is 0. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

section
variable (V : (c : Dev nD) → (b : Ref sig .tc) → Buf (Elt Ideal) ((c : Thread nD τ).loc b))

/-- What the one point writes back is p · w + b of the arrays the region finds. -/
theorem flushed_eq (c : Dev nD) (t : Fin cfg4.N) :
    (dat4 V c).flushed 3 t = ((cfg4.win 3).blk t).view.read (Elt Ideal) (cls (V c main_v64) (V c main_arg8) (V c main_v65)) := by
  show (cfg4.win 3).cut (grid4.coords t) ((dat4 V c).after 3 t) = _
  rw [after4_3]
  unfold out4_3
  rw [View.canon_unit_zero hz]
  simp only [View.ld_unit_zero (S := S1000x16) hz, View.ld_unit_zero (S := S16x7) hz, View.ld_unit_zero (S := S1x7) hz]
  obtain ⟨e0, e1, e2, e3, e4, e5, e6, e7⟩ := idx_facts t
  funext j
  show k4_pay1 (iblk4 V c 0 t) (iblk4 V c 1 t) (iblk4 V c 2 t) j = cls (V c main_v64) (V c main_arg8) (V c main_v65) (((cfg4.win 3).blk t).view.emb j)
  rw [pay_entry]
  unfold cls
  have h2 : ((cfg4.win 2).blk t).view.emb (ix2 0 (j 1)) = ix2 0 ((((cfg4.win 3).blk t).view.emb j) 1) := by
    funext a; apply Fin.ext
    match a with
    | ⟨0, _⟩ => show win4_2.index t (0 : Fin 2) * 1 + 1 * 0 = 0; omega
    | ⟨1, _⟩ => show win4_2.index t (1 : Fin 2) * 7 + 1 * (j 1).val = win4_3.index t (1 : Fin 2) * 7 + 1 * (j 1).val; omega
  refine congrArg₂ (fun u v : EReal => u + v) (Finset.sum_congr rfl fun k _ => ?_) (congrArg (V c main_v65) h2)
  have h0 : ((cfg4.win 0).blk t).view.emb (ix2 (j 0) k) = ix2 ((((cfg4.win 3).blk t).view.emb j) 0) k := by
    funext a; apply Fin.ext
    match a with
    | ⟨0, _⟩ => show win4_0.index t (0 : Fin 2) * 1000 + 1 * (j 0).val = win4_3.index t (0 : Fin 2) * 1000 + 1 * (j 0).val; omega
    | ⟨1, _⟩ => show win4_0.index t (1 : Fin 2) * 16 + 1 * k.val = k.val; omega
  have h1 : ((cfg4.win 1).blk t).view.emb (ix2 k (j 1)) = ix2 k ((((cfg4.win 3).blk t).view.emb j) 1) := by
    funext a; apply Fin.ext
    match a with
    | ⟨0, _⟩ => show win4_1.index t (0 : Fin 2) * 16 + 1 * k.val = k.val; omega
    | ⟨1, _⟩ => show win4_1.index t (1 : Fin 2) * 7 + 1 * (j 1).val = win4_3.index t (1 : Fin 2) * 7 + 1 * (j 1).val; omega
  exact congrArg₂ (fun u v : EReal => u * v) (congrArg (V c main_v64) h0) (congrArg (V c main_arg8) h1)

/-- An entry of the result is in point t's block iff each coordinate is in the block's range on its axis. -/
theorem mem_blk (t : Fin cfg4.N) (i : S1000x7.Idx) :
    i ∈ ((cfg4.win 3).blk t).view.set ↔ ∀ a : Fin 2, win4_3.index t a * S1000x7.size a ≤ (i a).val ∧ (i a).val < win4_3.index t a * S1000x7.size a + S1000x7.size a := by
  show i ∈ ((View.whole main_v66).slice (win4_3.rect t)).set ↔ _
  rw [View.set_slice_whole, Rect.mem_set_unit]
  exact Iff.rfl

/-- Every row block is some point's. -/
theorem idx_onto : ∀ q0 : Fin 1, ∃ t : Fin cfg4.N, win4_3.index t = ![q0.val, 0] :=
  (by decide +kernel : ∀ q0 : Fin 1, ∃ t : Fin grid4.N, win4_3.index t = ![q0.val, 0])

/-- The blocks tile the result: row r lies in the block of point r / 1000. -/
theorem cover (i : S1000x7.Idx) :
    ∃ t : Fin cfg4.N, (cfg4.win 3).flush t = true ∧ i ∈ ((cfg4.win 3).blk t).view.set := by
  have hi0 : (i 0).val < 1000 := (i 0).isLt
  have hi1 : (i 1).val < 7 := (i 1).isLt
  obtain ⟨t, ht⟩ := idx_onto ⟨(i 0).val / 1000, by omega⟩
  have q0 : win4_3.index t (0 : Fin 2) = (i 0).val / 1000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 7 ≤ (i 1).val ∧ (i 1).val < win4_3.index t (1 : Fin 2) * 7 + 7; omega

/-- The result array after the region, as one function of the arrays the region finds. -/
theorem final (c : Dev nD) : (dat4 V c).arrAt 3 cfg4.N = cls (V c main_v64) (V c main_arg8) (V c main_v65) :=
  (dat4 V c).arrAt_eq_of_cover 3 (cls (V c main_v64) (V c main_arg8) (V c main_v65)) (fun t _ => flushed_eq V c t) cover

end

end Cert.KernelIdeal.Classify4

end
-- ==== Proof.RefStages.lean ====
/-
  The reference, stage by stage, is the kernel's regions.

  The reference computes the same pipeline with host operations: a matrix product where a region multiplies row
  blocks, a broadcast bias, a maximum with 0. Each lemma here takes one region's entry-by-entry function, applied to
  the reference's EARLIER stages, and shows it is the reference's NEXT stage, entry by entry: both sides are the same
  sum of products over the contracted axis (for the three products), the same maximum of the same sum (for the two
  relus), the same selected inverse square root (for the degree factor). A bias enters the kernel as a 1 × n row made
  by a reshape and the reference by a broadcast of the vector; both read entry k of the vector.
-/
import proofs.«150755_j52767968199327_2_alg».proof.Proof.Gen.ReferenceIdeal.Read
import proofs.«150755_j52767968199327_2_alg».proof.Proof.Dinv0
import proofs.«150755_j52767968199327_2_alg».proof.Proof.Dense1
import proofs.«150755_j52767968199327_2_alg».proof.Proof.Dense2
import proofs.«150755_j52767968199327_2_alg».proof.Proof.Dense3
import proofs.«150755_j52767968199327_2_alg».proof.Proof.Classify4

set_option maxRecDepth 16384

noncomputable section

namespace Cert.Stages

open Cert.ReferenceIdeal Cert.ReferenceIdeal.Read
open Idealize.ShloMosaic Idealize.ShloMosaic.TcCoe Idealize.SL.Sem Idealize.ShloMosaic.ValueIdx

/-- The degree factor commutes with laying the 100000 degrees out as 1000 × 100 and back: it is pointwise. -/
theorem dinv_relayout (d : S100000.Idx → EReal) (i : S100000.Idx) :
    shapeCast Cert.KernelIdeal.S100000 (fun j => Cert.KernelIdeal.Dinv0.dinvAt (shapeCast Cert.KernelIdeal.S1000x100 d Cert.KernelIdeal.Gen.shapeCasts_S100000_S1000x100 j))
      Cert.KernelIdeal.Gen.shapeCasts_S1000x100_S100000 i = Cert.KernelIdeal.Dinv0.dinvAt (d i) := by
  show Cert.KernelIdeal.Dinv0.dinvAt (shapeCast Cert.KernelIdeal.S100000 (shapeCast Cert.KernelIdeal.S1000x100 d Cert.KernelIdeal.Gen.shapeCasts_S100000_S1000x100) Cert.KernelIdeal.Gen.shapeCasts_S1000x100_S100000 i) = _
  rw [shapeCast_shapeCast]

/-- The reference's `where(deg > 0, rsqrt(max(deg, 1e-30)), 0)` is the degree factor of each degree. -/
theorem dinv_eq (x1 : (⟨S2x3200000, .i32⟩ : BufTy).Contents (Elt Ideal)) (x2 : (⟨S3200000, .f32⟩ : BufTy).Contents (Elt Ideal)) (i : S100000.Idx) :
    Cert.KernelIdeal.Dinv0.dinvAt (val_main_v11 (F := Ideal) x1 x2 i) = val_main_v17 (F := Ideal) x1 x2 i := by
  rw [val_main_v17_apply, val_main_v13_apply, val_main_v16_apply, val_main_v15_apply, val_main_v12_apply, val_main_v14_apply,
    val_main_call0_v1_apply, val_main_call0_v0_apply, val_main_cst_1_apply, val_main_cst_2_apply, val_main_cst_3_apply]
  generalize val_main_v11 (F := Ideal) x1 x2 i = a
  rfl

/-- The first layer's product. -/
theorem lin1_eq (x0 : (⟨S100000x3, .f32⟩ : BufTy).Contents (Elt Ideal)) (x4 : (⟨S3x16, .f32⟩ : BufTy).Contents (Elt Ideal)) :
    Cert.KernelIdeal.Dense1.lin1 x0 x4 = val_main_v34 (F := Ideal) x0 x4 := by
  funext i
  rw [val_main_v34_apply]
  unfold Cert.KernelIdeal.Dense1.lin1
  refine Finset.sum_congr rfl fun k _ => ?_
  have el : (ix2 (i 0) k : S100000x3.Idx) = lidx_main_v34 i k := funext fun a => by match a with | ⟨0, _⟩ => rfl | ⟨1, _⟩ => rfl
  have er : (ix2 k (i 1) : S3x16.Idx) = ridx_main_v34 i k := funext fun a => by match a with | ⟨0, _⟩ => rfl | ⟨1, _⟩ => rfl
  rw [el, er]

/-- A bias vector reshaped to a 1 × 16 row reads, at column k, entry k of the vector. -/
theorem row16 (b : S16.Idx → EReal) (k : Fin 16) :
    shapeCast Cert.KernelIdeal.S1x16 b Cert.KernelIdeal.Gen.shapeCasts_S16_S1x16 (ix2 0 k) = b (ix1 k) :=
  shapeCast_apply b Cert.KernelIdeal.Gen.shapeCasts_S16_S1x16 (ix2 0 k) (ix1 k)
    (by rewrite [Shape.rowMajor_val_one, Shape.rowMajor_val_two]; show k.val = 0 * 16 + k.val; omega)

/-- The same for the classifier's 1 × 7 row. -/
theorem row7 (b : S7.Idx → EReal) (k : Fin 7) :
    shapeCast Cert.KernelIdeal.S1x7 b Cert.KernelIdeal.Gen.shapeCasts_S7_S1x7 (ix2 0 k) = b (ix1 k) :=
  shapeCast_apply b Cert.KernelIdeal.Gen.shapeCasts_S7_S1x7 (ix2 0 k) (ix1 k)
    (by rewrite [Shape.rowMajor_val_one, Shape.rowMajor_val_two]; show k.val = 0 * 7 + k.val; omega)

/-- The first relu fused with the second layer's product. -/
theorem lin2_eq (x0 : (⟨S100000x3, .f32⟩ : BufTy).Contents (Elt Ideal)) (x1 : (⟨S2x3200000, .i32⟩ : BufTy).Contents (Elt Ideal)) (x2 : (⟨S3200000, .f32⟩ : BufTy).Contents (Elt Ideal)) (x4 : (⟨S3x16, .f32⟩ : BufTy).Contents (Elt Ideal)) (x5 : (⟨S16, .f32⟩ : BufTy).Contents (Elt Ideal)) (x6 : (⟨S16x16, .f32⟩ : BufTy).Contents (Elt Ideal)) :
    Cert.KernelIdeal.Dense2.lin2 (val_main_v47 (F := Ideal) x0 x1 x2 x4) (shapeCast Cert.KernelIdeal.S1x16 x5 Cert.KernelIdeal.Gen.shapeCasts_S16_S1x16) x6
      = val_main_v52 (F := Ideal) x0 x1 x2 x4 x5 x6 := by
  funext i
  rw [val_main_v52_apply]
  unfold Cert.KernelIdeal.Dense2.lin2
  refine Finset.sum_congr rfl fun k _ => ?_
  rw [val_main_v51_apply, val_main_v50_apply, val_main_v49_apply, val_main_v48_apply, val_main_call1_v0_apply, val_main_call1_cst_apply, row16]
  have el : (ix2 (i 0) k : S100000x16.Idx) = lidx_main_v52 i k := funext fun a => by match a with | ⟨0, _⟩ => rfl | ⟨1, _⟩ => rfl
  have er : (ix2 k (i 1) : S16x16.Idx) = ridx_main_v52 i k := funext fun a => by match a with | ⟨0, _⟩ => rfl | ⟨1, _⟩ => rfl
  have eb : (ix1 k : S16.Idx) = idx_main_v48 (idx_main_v49 (lidx_main_v52 i k)) := funext fun a => by match a with | ⟨0, _⟩ => rfl
  rw [el, er, eb]
  generalize val_main_v47 (F := Ideal) x0 x1 x2 x4 (lidx_main_v52 i k) = a
  rfl

/-- The second relu. -/
theorem act3_eq (x0 : (⟨S100000x3, .f32⟩ : BufTy).Contents (Elt Ideal)) (x1 : (⟨S2x3200000, .i32⟩ : BufTy).Contents (Elt Ideal)) (x2 : (⟨S3200000, .f32⟩ : BufTy).Contents (Elt Ideal)) (x4 : (⟨S3x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) :
    Cert.KernelIdeal.Dense3.act3 (val_main_v65 (F := Ideal) x0 x1 x2 x4 x5 x6) (shapeCast Cert.KernelIdeal.S1x16 x7 Cert.KernelIdeal.Gen.shapeCasts_S16_S1x16)
      = val_main_v69 (F := Ideal) x0 x1 x2 x4 x5 x6 x7 := by
  funext i
  rw [val_main_v69_apply, val_main_v68_apply, val_main_v67_apply, val_main_v66_apply, val_main_call2_v0_apply, val_main_call2_cst_apply]
  unfold Cert.KernelIdeal.Dense3.act3
  rw [row16 x7 (i 1)]
  have eb : (ix1 (i 1) : S16.Idx) = idx_main_v66 (idx_main_v67 i) := funext fun a => by match a with | ⟨0, _⟩ => rfl
  rw [eb]
  generalize val_main_v65 (F := Ideal) x0 x1 x2 x4 x5 x6 i = a
  rfl

/-- The classifier. -/
theorem cls_eq (x0 : (⟨S100000x3, .f32⟩ : BufTy).Contents (Elt Ideal)) (x1 : (⟨S2x3200000, .i32⟩ : BufTy).Contents (Elt Ideal)) (x2 : (⟨S3200000, .f32⟩ : BufTy).Contents (Elt Ideal)) (x3 : (⟨S100000, .i32⟩ : BufTy).Contents (Elt Ideal)) (x4 : (⟨S3x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) (x8 : (⟨S16x7, .f32⟩ : BufTy).Contents (Elt Ideal)) (x9 : (⟨S7, .f32⟩ : BufTy).Contents (Elt Ideal)) :
    Cert.KernelIdeal.Classify4.cls (val_main_v72 (F := Ideal) x0 x1 x2 x3 x4 x5 x6 x7) x8 (shapeCast Cert.KernelIdeal.S1x7 x9 Cert.KernelIdeal.Gen.shapeCasts_S7_S1x7)
      = val_main_v76 (F := Ideal) x0 x1 x2 x3 x4 x5 x6 x7 x8 x9 := by
  funext i
  rw [val_main_v76_apply, val_main_v73_apply, val_main_v75_apply, val_main_v74_apply]
  unfold Cert.KernelIdeal.Classify4.cls
  rw [row7 x9 (i 1)]
  have eb : (ix1 (i 1) : S7.Idx) = idx_main_v74 (idx_main_v75 i) := funext fun a => by match a with | ⟨0, _⟩ => rfl
  rw [eb]
  refine congrArg₂ (fun u v : EReal => u + v) (Finset.sum_congr rfl fun k _ => ?_) rfl
  have el : (ix2 (i 0) k : S1000x16.Idx) = lidx_main_v73 i k := funext fun a => by match a with | ⟨0, _⟩ => rfl | ⟨1, _⟩ => rfl
  have er : (ix2 k (i 1) : S16x7.Idx) = ridx_main_v73 i k := funext fun a => by match a with | ⟨0, _⟩ => rfl | ⟨1, _⟩ => rfl
  rw [el, er]

end Cert.Stages

end
-- ==== Proof.Chain.lean ====
/-
  The idealized kernel's result, followed through @main's ten segments.

  Between the regions the kernel runs the SAME host operations as the reference (the self-loop concatenations, the
  scatter-adds and gathers of message passing, the pooling scatter-add), on the same buffers in the same order; only
  the five regions stand where the reference has a product, a bias-and-relu or the degree factor. So the contents of
  every buffer a later segment reads are followed boundary by boundary, each named by the reference's own stage of the
  same value: a stretch of host operations is read off its fold; a region's result array is its entry-by-entry
  function of the arrays the region finds (the region modules), which is the reference's next stage (the stage
  module); a buffer no segment writes keeps its contents. At the last boundary the result array is the reference's
  last stage of the kernel's own arguments.
-/
import proofs.«150755_j52767968199327_2_alg».proof.Proof.RefStages

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## Up to region 0: the edge lists with self-loops, the weights, the degrees -/

theorem b1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem b1_v6 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

theorem b1_v8 : W1 m ρ c (Proc.devRef .tc main_v8) = val_main_v8 (F := Ideal) (m ((c : Thread nD τ).loc main_arg2)) := by
  show StableHlo.after hostOps0 (W0 m ρ c) (Proc.devRef .tc main_v8) = _
  after_results_simp
  rfl

theorem b1_v12 : W1 m ρ c (Proc.devRef .tc main_v12) = shapeCast S1000x100 (val_main_v11 (F := Ideal) (m ((c : Thread nD τ).loc main_arg1)) (m ((c : Thread nD τ).loc main_arg2))) shapeCasts_S100000_S1000x100 := by
  show StableHlo.after hostOps0 (W0 m ρ c) (Proc.devRef .tc main_v12) = _
  after_results_simp
  rfl

/-! ## Region 0 and the stretch after it: the degree factors, the edge normalisation -/

theorem w2_v13 : W2 m ρ c (Proc.devRef .tc main_v13) = fun i => Dinv0.dinvAt (W1 m ρ c (Proc.devRef .tc main_v12) i) :=
  (W2_arr m ρ c 1).trans (Dinv0.final (V1 m ρ) c)

theorem w2_v3 : W2 m ρ c (Proc.devRef .tc main_v3) = val_main_v3 (F := Ideal) (m ((c : Thread nD τ).loc main_arg1)) := by
  rw [W2_of_ne m ρ c main_v3 (by decide)]
  exact b1_v3 m ρ c

theorem w2_v6 : W2 m ρ c (Proc.devRef .tc main_v6) = val_main_v6 (F := Ideal) (m ((c : Thread nD τ).loc main_arg1)) := by
  rw [W2_of_ne m ρ c main_v6 (by decide)]
  exact b1_v6 m ρ c

theorem w2_v8 : W2 m ρ c (Proc.devRef .tc main_v8) = val_main_v8 (F := Ideal) (m ((c : Thread nD τ).loc main_arg2)) := by
  rw [W2_of_ne m ρ c main_v8 (by decide)]
  exact b1_v8 m ρ c

/-- The degree factors, laid out flat again, are the reference's. -/
theorem dinv_flat : shapeCast S100000 (W2 m ρ c (Proc.devRef .tc main_v13) : S1000x100.Idx → EReal) shapeCasts_S1000x100_S100000 = val_main_v17 (F := Ideal) (m ((c : Thread nD τ).loc main_arg1)) (m ((c : Thread nD τ).loc main_arg2)) := by
  rw [w2_v13, b1_v12]
  funext i
  exact (Cert.Stages.dinv_relayout _ i).trans (Cert.Stages.dinv_eq _ _ i)

theorem w3_v30 : W3 m ρ c (Proc.devRef .tc main_v30) = val_main_v33 (F := Ideal) (m ((c : Thread nD τ).loc main_arg1)) (m ((c : Thread nD τ).loc main_arg2)) := by
  show StableHlo.after hostOps1 (W2 m ρ c) (Proc.devRef .tc main_v30) = _
  after_results_simp
  rw [w2_v3, w2_v6, w2_v8]
  show mulf (F := Ideal) (φ := .f32) (mulf (F := Ideal) (φ := .f32) (Host.gather _ (shapeCast S100000 (W2 m ρ c (Proc.devRef .tc main_v13) : S1000x100.Idx → EReal) shapeCasts_S1000x100_S100000) (val_main_v23 (F := Ideal) (m ((c : Thread nD τ).loc main_arg1)))) (val_main_v8 (F := Ideal) (m ((c : Thread nD τ).loc main_arg2))))
      (Host.gather _ (shapeCast S100000 (W2 m ρ c (Proc.devRef .tc main_v13) : S1000x100.Idx → EReal) shapeCasts_S1000x100_S100000) (val_main_v31 (F := Ideal) (m ((c : Thread nD τ).loc main_arg1)))) = _
  rw [dinv_flat]
  rfl

theorem w3_arg0 : W3 m ρ c (Proc.devRef .tc main_arg0) = (m ((c : Thread nD τ).loc main_arg0)) := by
  show StableHlo.after hostOps1 (W2 m ρ c) (Proc.devRef .tc main_arg0) = _
  after_results_simp
  rw [W2_of_ne m ρ c main_arg0 (by decide)]
  show StableHlo.after hostOps0 (W0 m ρ c) (Proc.devRef .tc main_arg0) = _
  after_results_simp
  try rfl

theorem w3_arg4 : W3 m ρ c (Proc.devRef .tc main_arg4) = (m ((c : Thread nD τ).loc main_arg4)) := by
  show StableHlo.after hostOps1 (W2 m ρ c) (Proc.devRef .tc main_arg4) = _
  after_results_simp
  rw [W2_of_ne m ρ c main_arg4 (by decide)]
  show StableHlo.after hostOps0 (W0 m ρ c) (Proc.devRef .tc main_arg4) = _
  after_results_simp
  try rfl

/-! ## Region 1 and the stretch after it: the first product, gathered, weighted and scattered -/

theorem w4_v31 : W4 m ρ c (Proc.devRef .tc main_v31) = val_main_v34 (F := Ideal) (m ((c : Thread nD τ).loc main_arg0)) (m ((c : Thread nD τ).loc main_arg4)) := by
  refine (W4_arr m ρ c 2).trans ((Dense1.final (V3 m ρ) c).trans ?_)
  show Dense1.lin1 (W3 m ρ c (Proc.devRef .tc main_arg0)) (W3 m ρ c (Proc.devRef .tc main_arg4)) = _
  rw [w3_arg0, w3_arg4]
  exact Cert.Stages.lin1_eq _ _

theorem w4_v3 : W4 m ρ c (Proc.devRef .tc main_v3) = val_main_v3 (F := Ideal) (m ((c : Thread nD τ).loc main_arg1)) := by
  rw [W4_of_ne m ρ c main_v3 (by decide)]
  show StableHlo.after hostOps1 (W2 m ρ c) (Proc.devRef .tc main_v3) = _
  after_results_simp
  exact w2_v3 m ρ c

theorem w4_v6 : W4 m ρ c (Proc.devRef .tc main_v6) = val_main_v6 (F := Ideal) (m ((c : Thread nD τ).loc main_arg1)) := by
  rw [W4_of_ne m ρ c main_v6 (by decide)]
  show StableHlo.after hostOps1 (W2 m ρ c) (Proc.devRef .tc main_v6) = _
  after_results_simp
  exact w2_v6 m ρ c

theorem w4_v30 : W4 m ρ c (Proc.devRef .tc main_v30) = val_main_v33 (F := Ideal) (m ((c : Thread nD τ).loc main_arg1)) (m ((c : Thread nD τ).loc main_arg2)) := by
  rw [W4_of_ne m ρ c main_v30 (by decide)]
  exact w3_v30 m ρ c

theorem w4_arg5 : W4 m ρ c (Proc.devRef .tc main_arg5) = (m ((c : Thread nD τ).loc main_arg5)) := by
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp
  try rfl

theorem w5_v44 : W5 m ρ c (Proc.devRef .tc main_v44) = val_main_v47 (F := Ideal) (m ((c : Thread nD τ).loc main_arg0)) (m ((c : Thread nD τ).loc main_arg1)) (m ((c : Thread nD τ).loc main_arg2)) (m ((c : Thread nD τ).loc main_arg4)) := by
  show StableHlo.after hostOps2 (W4 m ρ c) (Proc.devRef .tc main_v44) = _
  after_results_simp
  rw [w4_v3, w4_v6, w4_v30, w4_v31]
  rfl

theorem w5_v45 : W5 m ρ c (Proc.devRef .tc main_v45) = shapeCast S1x16 (m ((c : Thread nD τ).loc main_arg5)) shapeCasts_S16_S1x16 := by
  show StableHlo.after hostOps2 (W4 m ρ c) (Proc.devRef .tc main_v45) = _
  after_results_simp
  rw [w4_arg5]
  rfl

theorem w5_arg6 : W5 m ρ c (Proc.devRef .tc main_arg6) = (m ((c : Thread nD τ).loc main_arg6)) := by
  show StableHlo.after hostOps2 (W4 m ρ c) (Proc.devRef .tc main_arg6) = _
  after_results_simp
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp
  try rfl

/-! ## Region 2 and the stretch after it: relu, the second product, gathered, weighted and scattered -/

theorem w6_v46 : W6 m ρ c (Proc.devRef .tc main_v46) = val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W6_arr m ρ c 3).trans ((Dense2.final (V5 m ρ) c).trans ?_)
  show Dense2.lin2 (W5 m ρ c (Proc.devRef .tc main_v44)) (W5 m ρ c (Proc.devRef .tc main_v45)) (W5 m ρ c (Proc.devRef .tc main_arg6)) = _
  rw [w5_v44, w5_v45, w5_arg6]
  exact Cert.Stages.lin2_eq _ _ _ _ _ _

theorem w6_v3 : W6 m ρ c (Proc.devRef .tc main_v3) = val_main_v3 (F := Ideal) (m ((c : Thread nD τ).loc main_arg1)) := by
  rw [W6_of_ne m ρ c main_v3 (by decide)]
  show StableHlo.after hostOps2 (W4 m ρ c) (Proc.devRef .tc main_v3) = _
  after_results_simp
  exact w4_v3 m ρ c

theorem w6_v6 : W6 m ρ c (Proc.devRef .tc main_v6) = val_main_v6 (F := Ideal) (m ((c : Thread nD τ).loc main_arg1)) := by
  rw [W6_of_ne m ρ c main_v6 (by decide)]
  show StableHlo.after hostOps2 (W4 m ρ c) (Proc.devRef .tc main_v6) = _
  after_results_simp
  exact w4_v6 m ρ c

theorem w6_v30 : W6 m ρ c (Proc.devRef .tc main_v30) = val_main_v33 (F := Ideal) (m ((c : Thread nD τ).loc main_arg1)) (m ((c : Thread nD τ).loc main_arg2)) := by
  rw [W6_of_ne m ρ c main_v30 (by decide)]
  show StableHlo.after hostOps2 (W4 m ρ c) (Proc.devRef .tc main_v30) = _
  after_results_simp
  exact w4_v30 m ρ c

theorem w6_arg7 : W6 m ρ c (Proc.devRef .tc main_arg7) = (m ((c : Thread nD τ).loc main_arg7)) := by
  rw [W6_of_ne m ρ c main_arg7 (by decide)]
  show StableHlo.after hostOps2 (W4 m ρ c) (Proc.devRef .tc main_arg7) = _
  after_results_simp
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp
  try rfl

theorem w7_v59 : W7 m ρ c (Proc.devRef .tc main_v59) = val_main_v65 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps3 (W6 m ρ c) (Proc.devRef .tc main_v59) = _
  after_results_simp
  rw [w6_v3, w6_v6, w6_v30, w6_v46]
  rfl

theorem w7_v60 : W7 m ρ c (Proc.devRef .tc main_v60) = shapeCast S1x16 (m ((c : Thread nD τ).loc main_arg7)) shapeCasts_S16_S1x16 := by
  show StableHlo.after hostOps3 (W6 m ρ c) (Proc.devRef .tc main_v60) = _
  after_results_simp
  rw [w6_arg7]
  rfl

/-! ## Region 3 and the stretch after it: the second relu, pooled by graph -/

theorem w8_v61 : W8 m ρ c (Proc.devRef .tc main_v61) = val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W8_arr m ρ c 2).trans ((Dense3.final (V7 m ρ) c).trans ?_)
  show Dense3.act3 (W7 m ρ c (Proc.devRef .tc main_v59)) (W7 m ρ c (Proc.devRef .tc main_v60)) = _
  rw [w7_v59, w7_v60]
  exact Cert.Stages.act3_eq _ _ _ _ _ _ _

theorem w8_arg3 : W8 m ρ c (Proc.devRef .tc main_arg3) = (m ((c : Thread nD τ).loc main_arg3)) := by
  rw [W8_of_ne m ρ c main_arg3 (by decide)]
  show StableHlo.after hostOps3 (W6 m ρ c) (Proc.devRef .tc main_arg3) = _
  after_results_simp
  rw [W6_of_ne m ρ c main_arg3 (by decide)]
  show StableHlo.after hostOps2 (W4 m ρ c) (Proc.devRef .tc main_arg3) = _
  after_results_simp
  rw [W4_of_ne m ρ c main_arg3 (by decide)]
  show StableHlo.after hostOps1 (W2 m ρ c) (Proc.devRef .tc main_arg3) = _
  after_results_simp
  rw [W2_of_ne m ρ c main_arg3 (by decide)]
  show StableHlo.after hostOps0 (W0 m ρ c) (Proc.devRef .tc main_arg3) = _
  after_results_simp
  try rfl

theorem w8_arg9 : W8 m ρ c (Proc.devRef .tc main_arg9) = (m ((c : Thread nD τ).loc main_arg9)) := by
  rw [W8_of_ne m ρ c main_arg9 (by decide)]
  show StableHlo.after hostOps3 (W6 m ρ c) (Proc.devRef .tc main_arg9) = _
  after_results_simp
  rw [W6_of_ne m ρ c main_arg9 (by decide)]
  show StableHlo.after hostOps2 (W4 m ρ c) (Proc.devRef .tc main_arg9) = _
  after_results_simp
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp
  try rfl

theorem w9_v64 : W9 m ρ c (Proc.devRef .tc main_v64) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v64) = _
  after_results_simp
  rw [w8_arg3, w8_v61]
  rfl

theorem w9_v65 : W9 m ρ c (Proc.devRef .tc main_v65) = shapeCast S1x7 (m ((c : Thread nD τ).loc main_arg9)) shapeCasts_S7_S1x7 := by
  show StableHlo.after hostOps4 (W8 m ρ c) (Proc.devRef .tc main_v65) = _
  after_results_simp
  rw [w8_arg9]
  rfl

theorem w9_arg8 : W9 m ρ c (Proc.devRef .tc main_arg8) = (m ((c : Thread nD τ).loc main_arg8)) := by
  show StableHlo.after hostOps4 (W8 m ρ c) (Proc.devRef .tc main_arg8) = _
  after_results_simp
  rw [W8_of_ne m ρ c main_arg8 (by decide)]
  show StableHlo.after hostOps3 (W6 m ρ c) (Proc.devRef .tc main_arg8) = _
  after_results_simp
  rw [W6_of_ne m ρ c main_arg8 (by decide)]
  show StableHlo.after hostOps2 (W4 m ρ c) (Proc.devRef .tc main_arg8) = _
  after_results_simp
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp
  try rfl

/-! ## Region 4: the classifier -/

/-- The result array at the last boundary is the reference's last stage of the kernel's own arguments. -/
theorem result_eq : W10 m ρ c (Proc.devRef .tc main_v66) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 3).trans ((Classify4.final (V9 m ρ) c).trans ?_)
  show Classify4.cls (W9 m ρ c (Proc.devRef .tc main_v64)) (W9 m ρ c (Proc.devRef .tc main_arg8)) (W9 m ρ c (Proc.devRef .tc main_v65)) = _
  rw [w9_v64, w9_arg8, w9_v65]
  exact Cert.Stages.cls_eq _ _ _ _ _ _ _ _ _ _

end Cert.KernelIdeal.Chain

end
-- ==== Proof.lean ====
/-
  Two graph-convolution layers, a sum-pool per graph and a linear classifier: the tiled kernel against the plain
  formulation, equal as extended reals.

  Both programs compute, from the node features x, the edge list and edge weights, the graph assignment and the
  weights and biases,

      h1 = relu(Â (x W1) + b1),   h2 = relu(Â (h1 W2) + b2),   out = pool(h2) Wlin + blin,

  where Â is the edge-weighted adjacency with self-loops, normalised on both sides by dinv = rsqrt(max(deg, 1e-30))
  (0 where the degree is not positive), applied by gathering source rows, scaling, and scatter-adding into target
  rows; pool is a scatter-add by graph. The reference does every step as a host operation. The kernel does the
  irregular steps (concatenations, gathers, scatter-adds) with the SAME host operations, and five regular steps as
  pipelined regions: the degree factor on a 1000 × 100 layout of the degrees (one grid point); x W1, and relu(· + b1) W2,
  and relu(· + b2), each tiled into 25 blocks of 4000 node rows; and the classifier (one grid point).

  At the ideal instance a float is an extended real, narrowing to bf16 is the identity, and a product into a zero
  accumulator is the plain sum over the contracted axis. An entry of each regular step depends on ONE row of the
  row-tiled operand, so a block of the step's result is the block of the step applied to the whole arrays: each
  region's result array is one entry-by-entry function of the arrays it finds (one module per region), and that
  function of the reference's earlier stages is the reference's next stage (the stage module). Followed through
  @main's ten segments (the chain module), the kernel's result array is the reference's last stage of the same
  arguments. No law of arithmetic beyond reading both sides at an entry is used, so the finiteness of the inputs
  is never opened.

  The three frames: the two kernels' are their generated frame certificates; the reference's is its run with the
  result dropped. The idealization rewrote no operation, so `preserves` has nothing to state.
-/
import proofs.«150755_j52767968199327_2_alg».proof.Defs
import proofs.«150755_j52767968199327_2_alg».proof.Proof.Gen.Kernel
import proofs.«150755_j52767968199327_2_alg».proof.Proof.Gen.Kernel.Frame
import proofs.«150755_j52767968199327_2_alg».proof.Proof.Gen.KernelIdeal
import proofs.«150755_j52767968199327_2_alg».proof.Proof.Gen.KernelIdeal.Frame
import proofs.«150755_j52767968199327_2_alg».proof.Proof.Gen.ReferenceIdeal
import proofs.«150755_j52767968199327_2_alg».proof.Proof.Gen.Pre_finite_inputs
import proofs.«150755_j52767968199327_2_alg».proof.Proof.Gen.ReferenceIdeal.Run
import proofs.«150755_j52767968199327_2_alg».proof.Proof.Gen.ReferenceIdeal.Read
import proofs.«150755_j52767968199327_2_alg».proof.Proof.KernelRun
import proofs.«150755_j52767968199327_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's result array at the last segment boundary's contents, the reference's at its last
    stage; from memories that agree on the ten arguments these are one array. -/
theorem algebraic : Cert.algebraic_KernelIdeal_ReferenceIdeal := by
  intro m ρ m' ρ' _ hagree
  refine ⟨fun c => Cert.KernelIdeal.Gen.W10 m ρ c (Proc.devRef .tc Cert.KernelIdeal.main_v66),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v76_eq, a0, a1, a2, a3, a4, a5, a6, a7, a8, a9]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
